-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096x1 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S8192x4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096x1_S1x4096 : S4096x1.ShapeCasts S1x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x4096.size a
  hwx0_4 : ∀ i : grid0.Coords, EltTy.bits .f32 = 32 ∨ (Rect.block (s := S8192x4096) S1024x2048.size (cc0_transform_4 i) (hinb0_4 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelPieces.lean ====
/-
  What one run of the kernel body leaves behind, case by case, as values.

  The body keeps a running [1024, 2048] accumulator in a scratch buffer.  At the first step of a reduction sweep it
  clears the accumulator and adds the current block product to the zeros; at every later step it adds the block
  product to what the step before left; at the last step it also writes the output tile: the finished accumulator
  times the scale row plus the bias row.  Each of these is ONE whole-buffer store, so the buffer afterwards holds
  that store's value, a function of the blocks the body loaded.
-/
import proofs.«158546_j20160576487470_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step of a sweep: the accumulator is the block product added to the zero tile. -/
theorem acc_first (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : cond0_0 i) (hc1 : ¬cond0_1 i)
    (x0 : Vec F S1024x512 .f32) (x1 : Vec F S2048x512 .bf16) (x2 : Vec F S1x2048 .f32) (x3 : Vec F S1x2048 .f32) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg6.read_unread, harg8.read_unread, View.ld_unit_zero (S := S1024x512) hz, View.ld_unit_zero (S := S2048x512) hz, View.ld_unit_zero (S := S1024x2048) hz, View.ld_unit_zero (S := S1x2048) hz]

/-- A middle step: the accumulator is the block product added to what the step before left (`xs0`). -/
theorem acc_middle (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : ¬cond0_1 i)
    (x0 : Vec F S1024x512 .f32) (x1 : Vec F S2048x512 .bf16) (x2 : Vec F S1x2048 .f32) (x3 : Vec F S1x2048 .f32) (xs0 : Vec F S1024x2048 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg5.read_unread, harg6.read_unread, harg8.read_unread, View.ld_unit_zero (S := S1024x512) hz, View.ld_unit_zero (S := S2048x512) hz, View.ld_unit_zero (S := S1024x2048) hz, View.ld_unit_zero (S := S1x2048) hz]

/-- The last step accumulates in the same way … -/
theorem acc_last (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1024x512 .f32) (x1 : Vec F S2048x512 .bf16) (x2 : Vec F S1x2048 .f32) (x3 : Vec F S1x2048 .f32) (xs0 : Vec F S1024x2048 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S1024x512) hz, View.ld_unit_zero (S := S2048x512) hz, View.ld_unit_zero (S := S1024x2048) hz, View.ld_unit_zero (S := S1x2048) hz]

/-- … and writes the output tile: the finished accumulator scaled by the scale row, plus the bias row. -/
theorem tile_last (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .f32) (harg8 : arg8.IsWhole) (hc0 : ¬cond0_0 i) (hc1 : cond0_1 i)
    (x0 : Vec F S1024x512 .f32) (x1 : Vec F S2048x512 .bf16) (x2 : Vec F S1x2048 .f32) (x3 : Vec F S1x2048 .f32) (xs0 : Vec F S1024x2048 .f32) :
    out0_C_4 c i arg3 harg3 arg4 harg4 arg5 harg5 arg6 harg6 arg7 harg7 arg8 harg8 hc0 hc1 x0 x1 x2 x3 xs0 = k0_pay3 (k0_pay2 x0 x1 xs0) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S1024x2048) _ hz]
  simp only [View.readAt_eq_ld, harg3.read_unread, harg4.read_unread, harg5.read_unread, harg6.read_unread, harg8.read_unread, View.ld_unit_zero (S := S1024x512) hz, View.ld_unit_zero (S := S2048x512) hz, View.ld_unit_zero (S := S1024x2048) hz, View.ld_unit_zero (S := S1x2048) hz]

end Cert.KernelIdeal.Pieces

end
-- ==== Proof.KernelPayload.lean ====
/-
  The body's three stored values read at one position, over the extended reals.

  Changing a float's format is the identity there, so the block product of a [1024, 512] block of activations with
  a [2048, 512] block of weights (both second axes contracted, into a zero accumulator) is, at (r, c),
  `∑ d, a[r, d] · b[c, d]`; the accumulator update adds it to what was there; the epilogue multiplies by the
  scale row's entry of column c and adds the bias row's.
-/
import proofs.«158546_j20160576487470_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The block product's dimension numbers: both operands contract their second axis. -/
abbrev DD : DotDims S1024x512 S2048x512 S1024x2048 := dot_S1024x512_S2048x512_S1024x2048_1_1_0_0_n_n

theorem lhs_row (j : S1024x2048.Idx) (q : DD.contr.Idx) : (DD.lhsIdx j q 0).val = (j 0).val := by
  unfold DotDims.lhsIdx
  rw [dif_neg (show ¬(0 : Fin S1024x512.rank) ∈ DD.lhsBatch by decide),
    dif_pos (show (0 : Fin S1024x512.rank) ∈ DD.lhsNonContracting by decide)]
  rfl

theorem rhs_row (j : S1024x2048.Idx) (q : DD.contr.Idx) : (DD.rhsIdx j q 0).val = (j 1).val := by
  unfold DotDims.rhsIdx
  rw [dif_neg (show ¬(0 : Fin S2048x512.rank) ∈ DD.rhsBatch by decide),
    dif_pos (show (0 : Fin S2048x512.rank) ∈ DD.rhsNonContracting by decide)]
  rfl

/-- The block product at (r, c) is the dot product of row r of the first block with row c of the second. -/
theorem blockdot_apply (a : FVec Ideal S1024x512 .bf16) (b : FVec Ideal S2048x512 .bf16) (r : Fin 1024) (cc : Fin 2048) :
    matmul DD none a b (constant (F := Ideal) S1024x2048 .f32 0x00000000#32) (ix2 r cc)
      = ∑ d : Fin 512, a (ix2 r d) * b (ix2 cc d) := by
  simp only [matmul]
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx (ix2 r cc) ((contrEquiv1 DD 512 rfl rfl).symm k) = ix2 r k := funext fun ax => Fin.ext (by
    match ax with
    | ⟨0, _⟩ => exact lhs_row _ _
    | ⟨1, _⟩ => exact (DD.lhsIdx_val_of_single rfl _ _).trans hk)
  have er : DD.rhsIdx (ix2 r cc) ((contrEquiv1 DD 512 rfl rfl).symm k) = ix2 cc k := funext fun ax => Fin.ext (by
    match ax with
    | ⟨0, _⟩ => exact rhs_row _ _
    | ⟨1, _⟩ => exact (DD.rhsIdx_val_of_single rfl _ _).trans hk)
  rw [el, er]

/-- The cleared accumulator is zero everywhere. -/
theorem pay1_apply (y : S1024x2048.Idx) : k0_pay1 (F := Ideal) y = 0 := by
  unfold k0_pay1
  simp only [shapeCast_self]
  exact Ideal.ofBits_zero_f32

/-- The accumulator update at (r, c): what was there plus the block's dot product. -/
theorem pay2_apply (x0 : FVec Ideal S1024x512 .f32) (x1 : FVec Ideal S2048x512 .bf16) (acc : FVec Ideal S1024x2048 .f32)
    (r : Fin 1024) (cc : Fin 2048) :
    k0_pay2 x0 x1 acc (ix2 r cc) = acc (ix2 r cc) + ∑ d : Fin 512, x0 (ix2 r d) * x1 (ix2 cc d) := by
  have e : k0_pay2 x0 x1 acc
      = addf acc (matmul DD none (truncf .bf16 x0 bitsLt_bf16_f32) x1 (constant (F := Ideal) S1024x2048 .f32 0x00000000#32)) := by
    unfold k0_pay2
    simp only [shapeCast_self]
  rw [e, addf_apply, blockdot_apply]
  rfl

/-- The epilogue at (r, c): the accumulator times the scale of column c, plus the bias of column c. -/
theorem pay3_apply (a : FVec Ideal S1024x2048 .f32) (s b : FVec Ideal S1x2048 .f32) (r : Fin 1024) (cc : Fin 2048) :
    k0_pay3 a s b (ix2 r cc) = a (ix2 r cc) * s (ix2 (0 : Fin 1) cc) + b (ix2 (0 : Fin 1) cc) := by
  have e : k0_pay3 a s b
      = addf (mulf a (broadcastTo S1024x2048 s broadcasts_S1x2048_S1024x2048)) (broadcastTo S1024x2048 b broadcasts_S1x2048_S1024x2048) := by
    unfold k0_pay3
    simp only [shapeCast_self]
  rw [e, addf_apply, mulf_apply, broadcastTo_1b_ab_apply, broadcastTo_1b_ab_apply]

end Cert.KernelIdeal.Payload

end
-- ==== Proof.Spec.lean ====
/-
  The mathematics of the quantized linear layer, with no program in sight.

  A row of activations `x[R, ·]` (4096 reals) meets a row of integer weights `w[C, ·]`; the layer's output at
  `(R, C)` is `(∑ d, x[R,d] · w[C,d]) · s[C] + b[C]` when the per-channel scale `s` is applied to the finished
  dot product, and `∑ d, x[R,d] · (w[C,d] · s[C]) + b[C]` when the weights are scaled first.  Over the extended reals
  the two agree as soon as every `x`, every `w` and the scale are finite: then all products are real numbers and
  `(∑ a_d) · s = ∑ a_d · s` is distributivity in ℝ.  (With an infinite scale and summands of both signs they differ.)

  The dot product is also accumulated in eight column blocks of 512; `part` is the sum of the first `512·k`
  products, `part_succ` adds one block, `part_full` says that eight blocks are the whole row.
-/
import Idealize.ShloMosaic.PureOps.Ideal
import Idealize.ShloMosaic.Lib.ValueIdx

noncomputable section

namespace Cert.QLinear

open Idealize.ShloMosaic Idealize.ShloMosaic.ValueIdx

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling a finished sum of products is scaling every second factor, when all the numbers are finite. -/
theorem sum_mul_of_real {ι : Type*} (s : Finset ι) (a w : ι → EReal) (c : EReal)
    (ha : ∀ i, ∃ r : ℝ, a i = r) (hw : ∀ i, ∃ r : ℝ, w i = r) (hc : ∃ r : ℝ, c = r) :
    (∑ i ∈ s, a i * w i) * c = ∑ i ∈ s, a i * (w i * c) := by
  choose a' ha using ha
  choose w' hw using hw
  obtain ⟨c', rfl⟩ := hc
  have e1 : ∀ i, a i * w i = ((a' i * w' i : ℝ) : EReal) := fun i => by rw [ha, hw, EReal.coe_mul]
  have e2 : ∀ i, a i * (w i * (c' : EReal)) = ((a' i * w' i * c' : ℝ) : EReal) := fun i => by
    rw [ha, hw, EReal.coe_mul, EReal.coe_mul, mul_assoc]
  rw [Finset.sum_congr rfl (fun i _ => e1 i), Finset.sum_congr rfl (fun i _ => e2 i), ← coe_sum, ← coe_sum,
    ← EReal.coe_mul, Finset.sum_mul]

/-! ## The region's arrays: activations [8192, 4096], weights [4096, 4096], scale and bias rows [1, 4096] -/

section Region

variable (X : (⟨2, ![8192, 4096]⟩ : Shape).Idx → EReal) (W : (⟨2, ![4096, 4096]⟩ : Shape).Idx → EReal)
  (S B : (⟨2, ![1, 4096]⟩ : Shape).Idx → EReal)

/-- The `n`-th product of row `R` of the activations with row `C` of the weights (zero past the row's end). -/
def term (R : Fin 8192) (C : Fin 4096) (n : ℕ) : EReal :=
  if h : n < 4096 then X (ix2 R ⟨n, h⟩) * W (ix2 C ⟨n, h⟩) else 0

theorem term_of_lt (R : Fin 8192) (C : Fin 4096) (D : Fin 4096) (n : ℕ) (hn : D.val = n) :
    term X W R C n = X (ix2 R D) * W (ix2 C D) := by
  subst hn; unfold term; rw [dif_pos D.isLt]

/-- The dot product over the first `k` column blocks of 512. -/
def part (R : Fin 8192) (C : Fin 4096) (k : ℕ) : EReal := ∑ n ∈ Finset.range (512 * k), term X W R C n

theorem part_zero (R : Fin 8192) (C : Fin 4096) : part X W R C 0 = 0 := by
  unfold part; rw [Nat.mul_zero, Finset.range_zero, Finset.sum_empty]

/-- One more block: the 512 products of columns `512·k … 512·k + 511`. -/
theorem part_succ (R : Fin 8192) (C : Fin 4096) (k : ℕ) (f : Fin 512 → EReal)
    (hf : ∀ e : Fin 512, f e = term X W R C (512 * k + e.val)) :
    part X W R C (k + 1) = part X W R C k + ∑ e : Fin 512, f e := by
  unfold part
  rw [show 512 * (k + 1) = 512 * k + 512 from by ring, Finset.sum_range_add]
  refine congrArg _ ?_
  rw [Finset.sum_range]
  exact Finset.sum_congr rfl fun e _ => (hf e).symm

/-- Eight blocks are the whole row. -/
theorem part_full (R : Fin 8192) (C : Fin 4096) :
    part X W R C 8 = ∑ d : Fin 4096, X (ix2 R d) * W (ix2 C d) := by
  unfold part
  show ∑ n ∈ Finset.range 4096, term X W R C n = _
  rw [Finset.sum_range]
  exact Finset.sum_congr rfl fun d _ => term_of_lt X W R C d d.val rfl

/-- The region's result at row `R`, channel `C`: the finished dot product, scaled, plus the bias. -/
def rowcol (R : Fin 8192) (C : Fin 4096) : EReal :=
  (∑ d : Fin 4096, X (ix2 R d) * W (ix2 C d)) * S (ix2 0 C) + B (ix2 0 C)

/-- … as one array of shape [8192, 4096]. -/
def out2d : (⟨2, ![8192, 4096]⟩ : Shape).Idx → EReal := fun i => rowcol X W S B (i 0) (i 1)

theorem out2d_ix2 (R : Fin 8192) (C : Fin 4096) : out2d X W S B (ix2 R C) = rowcol X W S B R C := rfl

end Region

/-! ## The layer over its arguments: x [4, 2048, 4096], integer weights [4096, 4096], scale [4096, 1], bias [4096] -/

section Layer

variable (x : (⟨3, ![4, 2048, 4096]⟩ : Shape).Idx → EReal) (w : (⟨2, ![4096, 4096]⟩ : Shape).Idx → BitVec 32)
  (s : (⟨2, ![4096, 1]⟩ : Shape).Idx → EReal) (b : (⟨1, ![4096]⟩ : Shape).Idx → EReal)

/-- Scale applied to the finished dot product. -/
def scaleAfter (p : Fin 4) (q : Fin 2048) (o : Fin 4096) : EReal :=
  (∑ d : Fin 4096, x (ix3 p q d) * (((w (ix2 o d)).toInt : ℝ) : EReal)) * s (ix2 o 0) + b (ix1 o)

/-- Scale applied to the weights first. -/
def scaleFirst (p : Fin 4) (q : Fin 2048) (o : Fin 4096) : EReal :=
  (∑ d : Fin 4096, x (ix3 p q d) * ((((w (ix2 o d)).toInt : ℝ) : EReal) * s (ix2 o 0))) + b (ix1 o)

/-- For finite activations and a finite scale the two are the same number. -/
theorem scaleAfter_eq_scaleFirst (hx : ∀ j, ∃ r : ℝ, x j = r) (hs : ∀ j, ∃ r : ℝ, s j = r)
    (p : Fin 4) (q : Fin 2048) (o : Fin 4096) : scaleAfter x w s b p q o = scaleFirst x w s b p q o := by
  unfold scaleAfter scaleFirst
  exact congrArg (· + b (ix1 o)) (sum_mul_of_real Finset.univ _ _ _ (fun d => hx _) (fun d => ⟨_, rfl⟩) (hs _))

end Layer

end Cert.QLinear

end
-- ==== Proof.KernelRegion.lean ====
/-
  The region, point by point, over the extended reals.

  The grid is 8 row tiles × 2 column tiles × 8 reduction steps; point `t` is row tile `t / 16`, column tile
  `(t / 8) % 2`, step `t % 8`.  At step `k` the body loads rows `1024·(t/16) …` and columns `512·k …` of the
  activations, rows `2048·((t/8)%2) …` and columns `512·k …` of the weights, and the scale and bias entries of the
  column tile.  By induction on the point, the accumulator after step `k` holds, at (r, c), the dot product of the
  first `512·(k+1)` columns of activation row `1024·(t/16) + r` with weight row `2048·((t/8)%2) + c`; so the tile
  written at the last step is the whole dot product, scaled, plus the bias.
-/
import proofs.«158546_j20160576487470_2_alg».proof.Proof.KernelPieces
import proofs.«158546_j20160576487470_2_alg».proof.Proof.KernelPayload
import proofs.«158546_j20160576487470_2_alg».proof.Proof.Spec

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.KernelIdeal.Pieces Cert.KernelIdeal.Payload Cert.QLinear
open Idealize.ShloMosaic.ValueIdx

variable (m : (ℓ : Loc nD τ sig) → Buf (Elt Ideal) ℓ) (c : Dev nD)

/-- The four arrays as the region finds them: activations, weights, scale row, bias row. -/
abbrev XA : S8192x4096.Idx → EReal := V m c main_v0
abbrev WA : S4096x4096.Idx → EReal := V m c main_v1
abbrev SA : S1x4096.Idx → EReal := V m c main_v2
abbrev BA : S1x4096.Idx → EReal := V m c main_v3

/-- The four input blocks at point `t`, as arrays of extended reals. -/
abbrev xb (t : Fin cfg0.N) : FVec Ideal S1024x512 .f32 := iblk m c 0 t
abbrev wb (t : Fin cfg0.N) : FVec Ideal S2048x512 .bf16 := iblk m c 1 t
abbrev sb (t : Fin cfg0.N) : FVec Ideal S1x2048 .f32 := iblk m c 2 t
abbrev bb (t : Fin cfg0.N) : FVec Ideal S1x2048 .f32 := iblk m c 3 t

/-- Where each window's block sits at point `t`, decided over the 128 points. -/
theorem idx_facts : ∀ t : Fin cfg0.N,
    win0_0.index t (0 : Fin 2) = t.val / 16 ∧ win0_0.index t (1 : Fin 2) = t.val % 8
    ∧ win0_1.index t (0 : Fin 2) = (t.val / 8) % 2 ∧ win0_1.index t (1 : Fin 2) = t.val % 8
    ∧ win0_2.index t (0 : Fin 2) = 0 ∧ win0_2.index t (1 : Fin 2) = (t.val / 8) % 2
    ∧ win0_3.index t (0 : Fin 2) = 0 ∧ win0_3.index t (1 : Fin 2) = (t.val / 8) % 2
    ∧ win0_4.index t (0 : Fin 2) = t.val / 16 ∧ win0_4.index t (1 : Fin 2) = (t.val / 8) % 2 :=
  (by decide +kernel : ∀ t : Fin grid0.N, _)

/-- The activation block at point `t`, read at (r, d). -/
theorem xblk_apply (t : Fin cfg0.N) (r : Fin 1024) (d : Fin 512) (R : Fin 8192) (D : Fin 4096)
    (hR : R.val = 1024 * (t.val / 16) + r.val) (hD : D.val = 512 * (t.val % 8) + d.val) :
    xb m c t (ix2 r d) = XA m c (ix2 R D) := by
  obtain ⟨h0, h1, -⟩ := idx_facts t
  unfold xb iblk
  rw [View.read_apply]
  show V m c main_v0 (((cfg0.win 0).blk t).view.emb (ix2 r d)) = V m c main_v0 (ix2 R D)
  refine congrArg _ (funext fun a => Fin.ext ?_)
  match a with
  | ⟨0, _⟩ => show win0_0.index t (0 : Fin 2) * 1024 + 1 * r.val = R.val; rw [h0, hR]; omega
  | ⟨1, _⟩ => show win0_0.index t (1 : Fin 2) * 512 + 1 * d.val = D.val; rw [h1, hD]; omega

/-- The weight block at point `t`, read at (cc, d). -/
theorem wblk_apply (t : Fin cfg0.N) (cc : Fin 2048) (d : Fin 512) (C : Fin 4096) (D : Fin 4096)
    (hC : C.val = 2048 * ((t.val / 8) % 2) + cc.val) (hD : D.val = 512 * (t.val % 8) + d.val) :
    wb m c t (ix2 cc d) = WA m c (ix2 C D) := by
  obtain ⟨-, -, h0, h1, -⟩ := idx_facts t
  unfold wb iblk
  rw [View.read_apply]
  show V m c main_v1 (((cfg0.win 1).blk t).view.emb (ix2 cc d)) = V m c main_v1 (ix2 C D)
  refine congrArg _ (funext fun a => Fin.ext ?_)
  match a with
  | ⟨0, _⟩ => show win0_1.index t (0 : Fin 2) * 2048 + 1 * cc.val = C.val; rw [h0, hC]; omega
  | ⟨1, _⟩ => show win0_1.index t (1 : Fin 2) * 512 + 1 * d.val = D.val; rw [h1, hD]; omega

/-- The scale block at point `t`, read at column cc. -/
theorem sblk_apply (t : Fin cfg0.N) (cc : Fin 2048) (C : Fin 4096)
    (hC : C.val = 2048 * ((t.val / 8) % 2) + cc.val) :
    sb m c t (ix2 (0 : Fin 1) cc) = SA m c (ix2 (0 : Fin 1) C) := by
  obtain ⟨-, -, -, -, h0, h1, -⟩ := idx_facts t
  unfold sb iblk
  rw [View.read_apply]
  show V m c main_v2 (((cfg0.win 2).blk t).view.emb (ix2 (0 : Fin 1) cc)) = V m c main_v2 (ix2 (0 : Fin 1) C)
  refine congrArg _ (funext fun a => Fin.ext ?_)
  match a with
  | ⟨0, _⟩ => show win0_2.index t (0 : Fin 2) * 1 + 1 * 0 = 0; rw [h0]
  | ⟨1, _⟩ => show win0_2.index t (1 : Fin 2) * 2048 + 1 * cc.val = C.val; rw [h1, hC]; omega

/-- The bias block at point `t`, read at column cc. -/
theorem bblk_apply (t : Fin cfg0.N) (cc : Fin 2048) (C : Fin 4096)
    (hC : C.val = 2048 * ((t.val / 8) % 2) + cc.val) :
    bb m c t (ix2 (0 : Fin 1) cc) = BA m c (ix2 (0 : Fin 1) C) := by
  obtain ⟨-, -, -, -, -, -, h0, h1, -⟩ := idx_facts t
  unfold bb iblk
  rw [View.read_apply]
  show V m c main_v3 (((cfg0.win 3).blk t).view.emb (ix2 (0 : Fin 1) cc)) = V m c main_v3 (ix2 (0 : Fin 1) C)
  refine congrArg _ (funext fun a => Fin.ext ?_)
  match a with
  | ⟨0, _⟩ => show win0_3.index t (0 : Fin 2) * 1 + 1 * 0 = 0; rw [h0]
  | ⟨1, _⟩ => show win0_3.index t (1 : Fin 2) * 2048 + 1 * cc.val = C.val; rw [h1, hC]; omega

/-! ## What the accumulator and the output tile hold after a point -/

theorem scratch_first (t : Fin cfg0.N) (h0 : t.val % 8 = 0) :
    (outsAt0 m c t.val t.isLt).2 = k0_pay2 (F := Ideal) (iblk m c 0 t) (iblk m c 1 t) (k0_pay1 (F := Ideal)) := by
  have h1 : ¬t.val % 8 = 7 := by omega
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

theorem scratch_step (t : Fin cfg0.N) (h0 : ¬t.val % 8 = 0) :
    (outsAt0 m c t.val t.isLt).2
      = k0_pay2 (F := Ideal) (iblk m c 0 t) (iblk m c 1 t) (outsAt0 m c (t.val - 1) (Nat.lt_of_le_of_lt (Nat.sub_le _ _) t.isLt)).2 := by
  by_cases h1 : t.val % 8 = 7
  · rw [outsAt0_C m c t h0 h1]
    dsimp only
    exact acc_last (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) ((hcond0_1 t).mpr h1)
      (iblk m c 0 t) (iblk m c 1 t) (iblk m c 2 t) (iblk m c 3 t)
      (outsAt0 m c (t.val - 1) (Nat.lt_of_le_of_lt (Nat.sub_le _ _) t.isLt)).2
  · rw [outsAt0_B m c t h0 h1]
    dsimp only
    exact acc_middle (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) (fun h => h1 ((hcond0_1 t).mp h))
      (iblk m c 0 t) (iblk m c 1 t) (iblk m c 2 t) (iblk m c 3 t)
      (outsAt0 m c (t.val - 1) (Nat.lt_of_le_of_lt (Nat.sub_le _ _) t.isLt)).2

theorem tile_at (t : Fin cfg0.N) (h0 : ¬t.val % 8 = 0) (h1 : t.val % 8 = 7) :
    (outsAt0 m c t.val t.isLt).1
      = k0_pay3 (F := Ideal) (k0_pay2 (F := Ideal) (iblk m c 0 t) (iblk m c 1 t) (outsAt0 m c (t.val - 1) (Nat.lt_of_le_of_lt (Nat.sub_le _ _) t.isLt)).2)
          (iblk m c 2 t) (iblk m c 3 t) := by
  rw [outsAt0_C m c t h0 h1]
  dsimp only
  exact tile_last (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (iblk m c 0 t) (iblk m c 1 t) (iblk m c 2 t) (iblk m c 3 t)
    (outsAt0 m c (t.val - 1) (Nat.lt_of_le_of_lt (Nat.sub_le _ _) t.isLt)).2

/-- One product of the blocks at point `t` is one product of the arrays' rows. -/
theorem blockterm (t : Fin cfg0.N) (r : Fin 1024) (cc : Fin 2048) (R : Fin 8192) (C : Fin 4096)
    (hR : R.val = 1024 * (t.val / 16) + r.val) (hC : C.val = 2048 * ((t.val / 8) % 2) + cc.val) (e : Fin 512) :
    xb m c t (ix2 r e) * wb m c t (ix2 cc e)
      = term (XA m c) (WA m c) R C (512 * (t.val % 8) + e.val) := by
  have hD : 512 * (t.val % 8) + e.val < 4096 := by have := e.isLt; omega
  rw [xblk_apply m c t r e R ⟨_, hD⟩ hR rfl, wblk_apply m c t cc e C ⟨_, hD⟩ hC rfl]
  exact (term_of_lt (XA m c) (WA m c) R C ⟨_, hD⟩ _ rfl).symm

/-- One accumulation step: from the first `512·k` products to the first `512·(k+1)`. -/
theorem step_val (t : Fin cfg0.N) (accv : FVec Ideal S1024x2048 .f32) (r : Fin 1024) (cc : Fin 2048)
    (R : Fin 8192) (C : Fin 4096)
    (hR : R.val = 1024 * (t.val / 16) + r.val) (hC : C.val = 2048 * ((t.val / 8) % 2) + cc.val)
    (ha : accv (ix2 r cc) = part (XA m c) (WA m c) R C (t.val % 8)) :
    k0_pay2 (F := Ideal) (xb m c t) (wb m c t) accv (ix2 r cc) = part (XA m c) (WA m c) R C (t.val % 8 + 1) := by
  refine (pay2_apply (xb m c t) (wb m c t) accv r cc).trans ?_
  rw [ha]
  exact (part_succ (XA m c) (WA m c) R C (t.val % 8) _ (fun e => blockterm m c t r cc R C hR hC e)).symm

/-- THE ACCUMULATOR after point `n`: the dot product over the first `512·(n % 8 + 1)` columns. -/
theorem acc_inv : ∀ (n : ℕ) (h : n < cfg0.N) (r : Fin 1024) (cc : Fin 2048) (R : Fin 8192) (C : Fin 4096),
    R.val = 1024 * (n / 16) + r.val → C.val = 2048 * ((n / 8) % 2) + cc.val →
    (outsAt0 m c n h).2 (ix2 r cc) = part (XA m c) (WA m c) R C (n % 8 + 1)
  | 0, h, r, cc, R, C, hR, hC => by
    have e := scratch_first m c ⟨0, h⟩ rfl
    show (outsAt0 m c (⟨0, h⟩ : Fin cfg0.N).val (⟨0, h⟩ : Fin cfg0.N).isLt).2 (ix2 r cc) = _
    rw [e]
    exact step_val m c ⟨0, h⟩ (k0_pay1 (F := Ideal)) r cc R C hR hC ((pay1_apply _).trans (part_zero _ _ R C).symm)
  | n + 1, h, r, cc, R, C, hR, hC => by
    by_cases h0 : (n + 1) % 8 = 0
    · have e := scratch_first m c ⟨n + 1, h⟩ h0
      show (outsAt0 m c (⟨n + 1, h⟩ : Fin cfg0.N).val (⟨n + 1, h⟩ : Fin cfg0.N).isLt).2 (ix2 r cc) = _
      rw [e]
      refine step_val m c ⟨n + 1, h⟩ (k0_pay1 (F := Ideal)) r cc R C hR hC ((pay1_apply _).trans ?_)
      show 0 = part (XA m c) (WA m c) R C ((n + 1) % 8)
      rw [h0, part_zero]
    · have e := scratch_step m c ⟨n + 1, h⟩ h0
      show (outsAt0 m c (⟨n + 1, h⟩ : Fin cfg0.N).val (⟨n + 1, h⟩ : Fin cfg0.N).isLt).2 (ix2 r cc) = _
      rw [e]
      have ih := acc_inv n (Nat.lt_of_succ_lt h) r cc R C (by omega) (by omega)
      refine step_val m c ⟨n + 1, h⟩ _ r cc R C hR hC ?_
      show (outsAt0 m c n _).2 (ix2 r cc) = part (XA m c) (WA m c) R C ((n + 1) % 8)
      rw [ih]
      exact congrArg _ (by omega)

/-- THE OUTPUT TILE written at a sweep's last step: the layer's value at the tile's rows and channels. -/
theorem tile_val (t : Fin cfg0.N) (h1 : t.val % 8 = 7) (r : Fin 1024) (cc : Fin 2048) (R : Fin 8192) (C : Fin 4096)
    (hR : R.val = 1024 * (t.val / 16) + r.val) (hC : C.val = 2048 * ((t.val / 8) % 2) + cc.val) :
    (outsAt0 m c t.val t.isLt).1 (ix2 r cc) = rowcol (XA m c) (WA m c) (SA m c) (BA m c) R C := by
  have h0 : ¬t.val % 8 = 0 := by omega
  rw [tile_at m c t h0 h1]
  refine (pay3_apply _ (sb m c t) (bb m c t) r cc).trans ?_
  rw [sblk_apply m c t cc C hC, bblk_apply m c t cc C hC]
  have ea : k0_pay2 (F := Ideal) (iblk m c 0 t) (iblk m c 1 t)
      (outsAt0 m c (t.val - 1) (Nat.lt_of_le_of_lt (Nat.sub_le _ _) t.isLt)).2 (ix2 r cc)
      = ∑ d : Fin 4096, XA m c (ix2 R d) * WA m c (ix2 C d) := by
    rw [← scratch_step m c t h0, acc_inv m c t.val t.isLt r cc R C hR hC, h1, part_full]
  rw [ea]
  rfl

end Cert.KernelIdeal.Region

end
-- ==== Proof.KernelValue.lean ====
/-
  The whole program over the extended reals: the result array is the layer's value.

  Before the region the program flattens the activations to [8192, 4096] (row `2048·p + q` is batch `p`, position
  `q`), converts the integer weights to floats (exactly, over the reals) and lays scale and bias out as rows
  [1, 4096].  The region writes one [1024, 2048] tile per (row tile, column tile) at the last reduction step; the
  sixteen tiles cover the [8192, 4096] result, each holding the layer's value at its rows and channels.  After the
  region the result is folded back to [4, 2048, 4096].  So the program's result at (p, q, o) is
  `(∑ d, x[p,q,d] · w[o,d]) · scale[o] + bias[o]`.
-/
import proofs.«158546_j20160576487470_2_alg».proof.Proof.KernelRegion
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen Cert.KernelIdeal.Region Cert.QLinear
open Idealize.ShloMosaic.ValueIdx

variable (m : (ℓ : Loc nD τ sig) → Buf (Elt Ideal) ℓ) (ρ : Dev nD → PrngReg) (c : Dev nD)

/-! ## The region's result array -/

/-- The [8192, 4096] array the region leaves: the layer's value over the region's four input arrays. -/
abbrev G2 : Buf (Elt Ideal) ((c : Thread nD τ).loc main_v4) := out2d (XA m c) (WA m c) (SA m c) (BA m c)

/-- The tile a sweep's last point writes back is its block of that array. -/
theorem flushed_eq (t : Fin cfg0.N) (hf : (cfg0.win 4).flush t = true) :
    (dats m 0 c).flushed 4 t = ((cfg0.win 4).blk t).view.read (Elt Ideal) (G2 m c) := by
  have h1 : t.val % 8 = 7 := (flush0_4 t).mp hf
  obtain ⟨-, -, -, -, -, -, -, -, e0, e1⟩ := idx_facts t
  have hN : t.val < 128 := lt_of_lt_of_eq t.isLt (show cfg0.N = 128 from N_0)
  show (cfg0.win 4).cut (grid0.coords t) ((dats m 0 c).after 4 t) = _
  rw [after0_4]
  funext y
  obtain ⟨r, cc, rfl⟩ : ∃ (r : Fin 1024) (cc : Fin 2048), y = ix2 r cc := ⟨y 0, y 1, eq_ix2 y⟩
  have hR : 1024 * (t.val / 16) + r.val < 8192 := by have := r.isLt; omega
  have hC : 2048 * ((t.val / 8) % 2) + cc.val < 4096 := by have := cc.isLt; omega
  have he : ((cfg0.win 4).blk t).view.emb (ix2 r cc) = ix2 (⟨_, hR⟩ : Fin 8192) (⟨_, hC⟩ : Fin 4096) :=
    funext fun a => Fin.ext (by
      match a with
      | ⟨0, _⟩ => show win0_4.index t (0 : Fin 2) * 1024 + 1 * r.val = 1024 * (t.val / 16) + r.val; rw [e0]; omega
      | ⟨1, _⟩ => show win0_4.index t (1 : Fin 2) * 2048 + 1 * cc.val = 2048 * ((t.val / 8) % 2) + cc.val; rw [e1]; omega)
  rw [View.read_apply]
  show (outsAt0 m c t.val t.isLt).1 (ix2 r cc) = G2 m c (((cfg0.win 4).blk t).view.emb (ix2 r cc))
  rw [he, tile_val m c t h1 r cc ⟨_, hR⟩ ⟨_, hC⟩ rfl rfl]
  rfl

/-- An index of the result array is in point `t`'s tile iff each coordinate is in the tile's range. -/
theorem mem_blk (t : Fin cfg0.N) (i : S8192x4096.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v4).slice (win0_4.rect t)).set ↔ _
  rw [View.set_slice_whole, Rect.mem_set_unit]
  exact Iff.rfl

/-- Every index lies in the tile of the last point of its (row tile, column tile) sweep. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨n, hn⟩ : ∃ n, n = 16 * ((i 0).val / 1024) + 8 * ((i 1).val / 2048) + 7 := ⟨_, rfl⟩
  have hlt : n < cfg0.N := by rw [show cfg0.N = 128 from N_0]; omega
  obtain ⟨-, -, -, -, -, -, -, -, e0, e1⟩ := idx_facts ⟨n, hlt⟩
  refine ⟨⟨n, hlt⟩, (flush0_4 _).mpr (by show n % 8 = 7; omega), ?_⟩
  rw [mem_blk]
  intro a
  match a with
  | ⟨0, _⟩ =>
    show win0_4.index ⟨n, hlt⟩ (0 : Fin 2) * 1024 ≤ (i 0).val ∧ (i 0).val < win0_4.index ⟨n, hlt⟩ (0 : Fin 2) * 1024 + 1024
    rw [e0]; show n / 16 * 1024 ≤ (i 0).val ∧ (i 0).val < n / 16 * 1024 + 1024; omega
  | ⟨1, _⟩ =>
    show win0_4.index ⟨n, hlt⟩ (1 : Fin 2) * 2048 ≤ (i 1).val ∧ (i 1).val < win0_4.index ⟨n, hlt⟩ (1 : Fin 2) * 2048 + 2048
    rw [e1]; show n / 8 % 2 * 2048 ≤ (i 1).val ∧ (i 1).val < n / 8 % 2 * 2048 + 2048; omega

/-- So after the run the region's result array is the layer's value everywhere. -/
theorem final : (dats m 0 c).arrAt 4 cfg0.N = G2 m c :=
  (dats m 0 c).arrAt_eq_of_cover 4 (G2 m c) (flushed_eq m c) (cover)

/-! ## The host operations before the region -/

theorem V_v0 : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  try rfl

theorem V_v1 : (V m c main_v1 : S4096x4096.Idx → EReal)
    = sitofp (F := Ideal) .bf16 (m ((c : Thread nD τ).loc main_arg1)) := by
  show StableHlo.after hostOps0 (fun b => m (c, b)) (Proc.devRef .tc main_v1) = _
  after_results
  try rfl

theorem V_v2 : (V m c main_v2 : S1x4096.Idx → EReal)
    = shapeCast S1x4096 (m ((c : Thread nD τ).loc main_arg2)) shapeCasts_S4096x1_S1x4096 := by
  show StableHlo.after hostOps0 (fun b => m (c, b)) (Proc.devRef .tc main_v2) = _
  after_results
  try rfl

theorem V_v3 : (V m c main_v3 : S1x4096.Idx → EReal)
    = shapeCast S1x4096 (m ((c : Thread nD τ).loc main_arg3)) shapeCasts_S4096_S1x4096 := by
  show StableHlo.after hostOps0 (fun b => m (c, b)) (Proc.devRef .tc main_v3) = _
  after_results
  try rfl

/-- Row `2048·p + q` of the flattened activations is `x[p, q, ·]`. -/
theorem XA_apply (p : Fin 4) (q : Fin 2048) (d : Fin 4096) (R : Fin 8192) (hR : R.val = 2048 * p.val + q.val) :
    XA m c (ix2 R d) = m ((c : Thread nD τ).loc main_arg0) (ix3 p q d) := by
  show (V m c main_v0 : S8192x4096.Idx → EReal) (ix2 R d) = _
  rw [V_v0 m c]
  exact shapeCast_apply _ _ (ix2 R d) (ix3 p q d) (by
    rw [Shape.rowMajor_val_three, Shape.rowMajor_val_two]
    show (p.val * 2048 + q.val) * 4096 + d.val = R.val * 4096 + d.val
    omega)

/-- A converted weight is the integer itself, as a real. -/
theorem WA_apply (o d : Fin 4096) :
    WA m c (ix2 o d) = (((m ((c : Thread nD τ).loc main_arg1) (ix2 o d)).toInt : ℝ) : EReal) := by
  show (V m c main_v1 : S4096x4096.Idx → EReal) (ix2 o d) = _
  rw [V_v1 m c]
  rfl

/-- The scale row at column `o` is `scale[o, 0]`. -/
theorem SA_apply (o : Fin 4096) :
    SA m c (ix2 (0 : Fin 1) o) = m ((c : Thread nD τ).loc main_arg2) (ix2 o (0 : Fin 1)) := by
  show (V m c main_v2 : S1x4096.Idx → EReal) (ix2 (0 : Fin 1) o) = _
  rw [V_v2 m c]
  exact shapeCast_apply _ _ (ix2 (0 : Fin 1) o) (ix2 o (0 : Fin 1)) (by
    rw [Shape.rowMajor_val_two, Shape.rowMajor_val_two]
    show o.val * 1 + 0 = 0 * 4096 + o.val
    omega)

/-- The bias row at column `o` is `bias[o]`. -/
theorem BA_apply (o : Fin 4096) :
    BA m c (ix2 (0 : Fin 1) o) = m ((c : Thread nD τ).loc main_arg3) (ix1 o) := by
  show (V m c main_v3 : S1x4096.Idx → EReal) (ix2 (0 : Fin 1) o) = _
  rw [V_v3 m c]
  exact shapeCast_apply _ _ (ix2 (0 : Fin 1) o) (ix1 o) (by
    rw [Shape.rowMajor_val_one, Shape.rowMajor_val_two]
    show o.val = 0 * 4096 + o.val
    omega)

/-! ## The result -/

/-- The program's result: the layer with the scale applied to the finished dot product. -/
def result : Buf (Elt Ideal) ((c : Thread nD τ).loc main_v5) := fun i =>
  scaleAfter (m ((c : Thread nD τ).loc main_arg0)) (m ((c : Thread nD τ).loc main_arg1))
    (m ((c : Thread nD τ).loc main_arg2)) (m ((c : Thread nD τ).loc main_arg3)) (i 0) (i 1) (i 2)

/-- The fold back to [4, 2048, 4096] after the region reads the region's array at row `2048·p + q`. -/
theorem tail_eq : Pipeline.afterTail₀ cfgs (dats m) 0 (V0 m) [hostOps1] c main_v5 = result m c := by
  have e : Pipeline.afterTail₀ cfgs (dats m) 0 (V0 m) [hostOps1] c main_v5
      = shapeCast S4x2048x4096 (G2 m c) shapeCasts_S8192x4096_S4x2048x4096 := by
    unfold Pipeline.afterTail₀
    show StableHlo.after hostOps1 _ (Proc.devRef .tc main_v5) = _
    after_results
    rw [(Pipeline.withArrays_arr spec0 launch0.win.arr_inj c _ _ 4).trans (final m c)]
    rfl
  rw [e]
  funext i
  obtain ⟨p, q, o, rfl⟩ : ∃ (p : Fin 4) (q : Fin 2048) (o : Fin 4096), i = ix3 p q o := ⟨i 0, i 1, i 2, eq_ix3 i⟩
  have hR : 2048 * p.val + q.val < 8192 := by have := p.isLt; have := q.isLt; omega
  rw [shapeCast_apply (G2 m c) shapeCasts_S8192x4096_S4x2048x4096 (ix3 p q o) (ix2 (⟨_, hR⟩ : Fin 8192) o) (by
    show (S8192x4096.rowMajor (ix2 (⟨_, hR⟩ : Fin 8192) o)).val = (S4x2048x4096.rowMajor (ix3 p q o)).val
    rw [Shape.rowMajor_val_three, Shape.rowMajor_val_two]
    show (2048 * p.val + q.val) * 4096 + o.val = (p.val * 2048 + q.val) * 4096 + o.val
    omega)]
  show rowcol (XA m c) (WA m c) (SA m c) (BA m c) ⟨_, hR⟩ o = scaleAfter _ _ _ _ p q o
  unfold rowcol scaleAfter
  rw [SA_apply, BA_apply]
  refine congrArg (· * _ + _) (Finset.sum_congr rfl fun d _ => ?_)
  rw [XA_apply m c p q d ⟨_, hR⟩ rfl, WA_apply]

/-- THE RUN, READ: the result buffer at the layer's value, the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference over the extended reals: the layer with the weights scaled first.

  The reference converts the integer weights to floats, multiplies row `o` of them by `scale[o, 0]`, contracts the
  activations' last axis with the scaled weights' second axis, and adds `bias[o]`: at (p, q, o) this is
  `∑ d, x[p,q,d] · (w[o,d] · scale[o,0]) + bias[o]`.
-/
import proofs.«158546_j20160576487470_2_alg».proof.Proof.Gen.ReferenceIdeal.Read
import proofs.«158546_j20160576487470_2_alg».proof.Proof.Spec

noncomputable section

namespace Cert.ReferenceIdeal.RefValue

open Cert.ReferenceIdeal Cert.ReferenceIdeal.Gen Cert.ReferenceIdeal.Read Cert.QLinear
open Idealize.ShloMosaic Idealize.ShloMosaic.ValueIdx

/-- The reference's result, index by index, is `scaleFirst` of its arguments. -/
theorem ref_eq (x0 : (⟨S4x2048x4096, .f32⟩ : BufTy).Contents (Elt Ideal)) (x1 : (⟨S4096x4096, .i32⟩ : BufTy).Contents (Elt Ideal))
    (x2 : (⟨S4096x1, .f32⟩ : BufTy).Contents (Elt Ideal)) (x3 : (⟨S4096, .f32⟩ : BufTy).Contents (Elt Ideal)) :
    val_main_v6 (F := Ideal) x0 x1 x2 x3 = fun i => scaleFirst x0 x1 x2 x3 (i 0) (i 1) (i 2) := by
  funext i
  obtain ⟨p, q, o, rfl⟩ : ∃ (p : Fin 4) (q : Fin 2048) (o : Fin 4096), i = ix3 p q o := ⟨i 0, i 1, i 2, eq_ix3 i⟩
  have el : ∀ k : Fin 4096, lidx_main_v3 (ix3 p q o) k = ix3 p q k := fun k => funext fun a => Fin.ext (by
    match a with
    | ⟨0, _⟩ => rfl
    | ⟨1, _⟩ => rfl
    | ⟨2, _⟩ => rfl)
  have er : ∀ k : Fin 4096, ridx_main_v3 (ix3 p q o) k = ix2 o k := fun k => funext fun a => Fin.ext (by
    match a with
    | ⟨0, _⟩ => rfl
    | ⟨1, _⟩ => rfl)
  have e1 : ∀ k : Fin 4096, idx_main_v1 (ix2 o k) = ix2 o (0 : Fin 1) := fun k => funext fun a => Fin.ext (by
    match a with
    | ⟨0, _⟩ => rfl
    | ⟨1, _⟩ => rfl)
  have e4 : idx_main_v4 (idx_main_v5 (ix3 p q o)) = ix1 o := funext fun a => Fin.ext (by
    match a with
    | ⟨0, _⟩ => rfl)
  rw [val_main_v6_apply, val_main_v3_apply, val_main_v5_apply, val_main_v4_apply, e4]
  simp only [el, er, val_main_v2_apply, val_main_v0_apply, val_main_v1_apply, e1, Ideal.addf_def, Ideal.mulf_def]
  rfl

end Cert.ReferenceIdeal.RefValue

end
-- ==== Proof.Finite.lean ====
/-
  From the precondition to "every entry is a real number".

  The precondition is the conjunction of three tests, one per float argument: every entry's absolute value is below
  +∞.  Over the extended reals `|x| = max x (-x)`, which is +∞ at both infinities, so the test leaves exactly the
  real numbers.
-/
import proofs.«158546_j20160576487470_2_alg».proof.Pre_finite_inputs
import proofs.«158546_j20160576487470_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Finite

open Idealize.ShloMosaic Idealize.ShloMosaic.ValueIdx Cert.Pre_finite_inputs Cert.Pre_finite_inputs.Gen

instance : Subsingleton S_.Idx := ⟨fun a b => funext fun d => d.elim0⟩

/-- The word `0x7F800000` is +∞. -/
theorem top_word : Ideal.ofBits .f32 0x7F800000#32 = ⊤ := by simp [Ideal.ofBits, Ideal.ieee]

/-- An extended real whose absolute value is below +∞ is a real number. -/
theorem real_of_abs_lt (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- One entry that passes the printed test is a real number. -/
theorem elt_finite {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = r := by
  have e : broadcastInDim s ![] hb (constant (F := Ideal) S_ .f32 0x7F800000#32) i = ⊤ := by
    rw [broadcastInDim_apply _ hb _ i ix0 (fun a => a.elim0)]
    exact top_word
  have h' : Ideal.cmp .olt (max (x i) (-(x i))) (broadcastInDim s ![] hb (constant (F := Ideal) S_ .f32 0x7F800000#32) i) = 1#1 := h
  rw [e] at h'
  exact real_of_abs_lt (x i) h'

/-- The precondition makes every activation, every scale and every bias a real number. -/
theorem finite_of_pre (x : FVec Ideal S4x2048x4096 .f32) (w : IVec S4096x4096 32) (s : FVec Ideal S4096x1 .f32)
    (b : FVec Ideal S4096 .f32) (h : fn (F := Ideal) x w s b = fun _ => 1#1) :
    (∀ j, ∃ r : ℝ, x j = r) ∧ (∀ j, ∃ r : ℝ, s j = r) ∧ (∀ j, ∃ r : ℝ, b j = r) := by
  have h0 := congrFun h ix0
  dsimp only [fn] at h0
  obtain ⟨h12, h3⟩ := IntOp.andi_eq_one.1 h0
  obtain ⟨h1, h2⟩ := IntOp.andi_eq_one.1 h12
  exact ⟨fun j => elt_finite x _ j (Host.reduce_andi_all _ _ _ _ ix0 h1 j),
    fun j => elt_finite s _ j (Host.reduce_andi_all _ _ _ _ ix0 h2 j),
    fun j => elt_finite b _ j (Host.reduce_andi_all _ _ _ _ ix0 h3 j)⟩

end Cert.Pre_finite_inputs.Finite

end
-- ==== Proof.lean ====
/-
  A linear layer with integer weights and a per-channel scale: `out[p,q,o] = ∑ d, x[p,q,d] · w[o,d] · scale[o] + bias[o]`.

  The kernel tiles the [8192, 4096] × [4096, 4096]ᵀ product into 8 × 2 output tiles and sweeps the contraction axis
  in eight blocks of 512, accumulating the block products, and applies scale and bias to the finished accumulator:
  `(∑ d, x · w) · scale + bias`.  The reference scales the weights first: `∑ d, x · (w · scale) + bias`.  Over the
  extended reals a sum may be re-associated and re-ordered freely, so the eight block sums are the whole row sum
  (Proof/KernelRegion.lean, by induction over the grid's points); pulling the scale out of the sum is distributivity,
  which needs every product and the scale to be finite — that is where the precondition is used
  (Proof/Finite.lean, Proof/Spec.lean).  The kernel's program is read in Proof/KernelValue.lean, the reference's in
  Proof/RefValue.lean; here the three frames and the equality of the two results are assembled.
-/
import proofs.«158546_j20160576487470_2_alg».proof.Defs
import proofs.«158546_j20160576487470_2_alg».proof.Proof.Gen.Kernel
import proofs.«158546_j20160576487470_2_alg».proof.Proof.Gen.Kernel.Skeleton
import proofs.«158546_j20160576487470_2_alg».proof.Proof.Gen.Kernel.Launch
import proofs.«158546_j20160576487470_2_alg».proof.Proof.Gen.Kernel.Points
import proofs.«158546_j20160576487470_2_alg».proof.Proof.Gen.Kernel.Frame
import proofs.«158546_j20160576487470_2_alg».proof.Proof.Gen.KernelIdeal
import proofs.«158546_j20160576487470_2_alg».proof.Proof.Gen.KernelIdeal.Skeleton
import proofs.«158546_j20160576487470_2_alg».proof.Proof.Gen.KernelIdeal.Launch
import proofs.«158546_j20160576487470_2_alg».proof.Proof.Gen.KernelIdeal.Points
import proofs.«158546_j20160576487470_2_alg».proof.Proof.Gen.KernelIdeal.Frame
import proofs.«158546_j20160576487470_2_alg».proof.Proof.Gen.ReferenceIdeal
import proofs.«158546_j20160576487470_2_alg».proof.Proof.Gen.Pre_finite_inputs
import proofs.«158546_j20160576487470_2_alg».proof.Proof.Gen.ReferenceIdeal.Run
import proofs.«158546_j20160576487470_2_alg».proof.Proof.Gen.ReferenceIdeal.Read
import proofs.«158546_j20160576487470_2_alg».proof.Proof.KernelValue
import proofs.«158546_j20160576487470_2_alg».proof.Proof.RefValue
import proofs.«158546_j20160576487470_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the layer's value: the kernel with the scale applied after the sum, the reference with the
    scale inside it; for finite activations and scales these are the same extended real at every index. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1,
    (hagree c).2.2.1, (hagree c).2.2.2]
  obtain ⟨hx, hs, -⟩ := Cert.Pre_finite_inputs.Finite.finite_of_pre _ _ _ _ (hpre c)
  funext i
  exact (Cert.QLinear.scaleAfter_eq_scaleFirst _ _ _ _ hx hs (i 0) (i 1) (i 2)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
